-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192x32 : Shape := ⟨2, ![8192, 32]⟩
abbrev S4096x4096 : Shape := ⟨2, ![4096, 4096]⟩
abbrev S32x32 : Shape := ⟨2, ![32, 32]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192x32 : S_.BroadcastsInDim S8192x32 (![] : Fin 0 → Fin S8192x32.rank)
  reducesTo_S8192x32_S_d0_1 : S8192x32.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S32x32 : S_.BroadcastsInDim S32x32 (![] : Fin 0 → Fin S32x32.rank)
  reducesTo_S32x32_S_d0_1 : S32x32.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S8192x4096 .f32) (main_arg1 : FVec F S8192x32 .f32) (main_arg2 : FVec F S4096x4096 .f32) (main_arg3 : FVec F S32x32 .f32) (main_arg4 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x32 .f32 := Host.absf main_arg1
  let main_cst_0 : FVec F S_ .f32 := constant S_ .f32 0x7F800000#32
  let main_v5 : FVec F S8192x32 .f32 := broadcastInDim S8192x32 ![] bcast_S_S8192x32 main_cst_0
  let main_v6 : IVec S8192x32 1 := cmpf .olt main_v4 main_v5
  let main_c_1 : IVec S_ 1 := constantI S_ 1 1#1
  let main_v7 : IVec S_ 1 := (fun x v => Host.reduce IntOp.andi x v reducesTo_S8192x32_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S32x32 .f32 := Host.absf main_arg3
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg4 main_v13 main_v16
-- ==== Kernel.lean ====
abbrev S8192x4096 : Shape := ⟨2, ![8192, 4096]⟩
abbrev S8192x32 : Shape := ⟨2, ![8192, 32]⟩
abbrev S4096x4096 : Shape := ⟨2, ![4096, 4096]⟩
abbrev S32x32 : Shape := ⟨2, ![32, 32]⟩
abbrev S4096 : Shape := ⟨1, ![4096]⟩
abbrev S1x4096 : Shape := ⟨2, ![1, 4096]⟩
abbrev S32x128x32 : Shape := ⟨3, ![32, 128, 32]⟩
abbrev S4096x32 : Shape := ⟨2, ![4096, 32]⟩
abbrev S2048x256 : Shape := ⟨2, ![2048, 256]⟩
abbrev S1024x256 : Shape := ⟨2, ![1024, 256]⟩
abbrev S2048x32 : Shape := ⟨2, ![2048, 32]⟩
abbrev S1024x32 : Shape := ⟨2, ![1024, 32]⟩
abbrev S1x1024 : Shape := ⟨2, ![1, 1024]⟩
abbrev S2048x1024 : Shape := ⟨2, ![2048, 1024]⟩
abbrev S1x32 : Shape := ⟨2, ![1, 32]⟩
abbrev S2048 : Shape := ⟨1, ![2048]⟩
abbrev S2048x1 : Shape := ⟨2, ![2048, 1]⟩
abbrev S1024 : Shape := ⟨1, ![1024]⟩
abbrev S1024x1 : Shape := ⟨2, ![1024, 1]⟩
abbrev S2048x128 : Shape := ⟨2, ![2048, 128]⟩
abbrev S1024x128 : Shape := ⟨2, ![1024, 128]⟩

abbrev nBuf : Space → Nat
  | .hbm => 9
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S8192x32, .f32⟩
  | .hbm, ⟨2, _⟩ => ⟨S4096x4096, .f32⟩
  | .hbm, ⟨3, _⟩ => ⟨S32x32, .f32⟩
  | .hbm, ⟨4, _⟩ => ⟨S4096, .f32⟩
  | .hbm, ⟨5, _⟩ => ⟨S1x4096, .f32⟩
  | .hbm, ⟨6, _⟩ => ⟨S32x128x32, .f32⟩
  | .hbm, ⟨7, _⟩ => ⟨S4096x32, .f32⟩
  | .hbm, ⟨8, _⟩ => ⟨S8192x4096, .f32⟩
  | .local _ .vmem, ⟨0, _⟩ => ⟨S2048x256, .f32⟩
  | .local _ .vmem, ⟨1, _⟩ => ⟨S2048x256, .f32⟩
  | .local _ .vmem, ⟨2, _⟩ => ⟨S1024x256, .f32⟩
  | .local _ .vmem, ⟨3, _⟩ => ⟨S1024x256, .f32⟩
  | .local _ .vmem, ⟨4, _⟩ => ⟨S2048x32, .f32⟩
  | .local _ .vmem, ⟨5, _⟩ => ⟨S2048x32, .f32⟩
  | .local _ .vmem, ⟨6, _⟩ => ⟨S1024x32, .f32⟩
  | .local _ .vmem, ⟨7, _⟩ => ⟨S1024x32, .f32⟩
  | .local _ .vmem, ⟨8, _⟩ => ⟨S1x1024, .f32⟩
  | .local _ .vmem, ⟨9, _⟩ => ⟨S1x1024, .f32⟩
  | .local _ .vmem, ⟨10, _⟩ => ⟨S2048x1024, .f32⟩
  | .local _ .vmem, ⟨11, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4096_S1x4096 : S4096.ShapeCasts S1x4096
  bcast_S32x32_S32x128x32_0_2 : S32x32.BroadcastsInDim S32x128x32 (![0, 2] : Fin 2 → Fin S32x128x32.rank)
  shapeCasts_S32x128x32_S4096x32 : S32x128x32.ShapeCasts S4096x32
  inb_S2048x1024_S2048x1024_0_0 : ∀ a, (![0, 0] : Fin 2 → Nat) a + S2048x1024.size a ≤ S2048x1024.size a
  h_S2048x1024 : 0 < S2048x1024.numel
  inb_S2048x32_S2048x32_0_0 : ∀ a, (![0, 0] : Fin 2 → Nat) a + S2048x32.size a ≤ S2048x32.size a
  h_S2048x32 : 0 < S2048x32.numel
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  iota_S1x32_d1_w32 : S1x32.Iotas .tc 32 [1]
  natLt_1_32 : 1 < 32
  broadcasts_S1x32_S2048x32 : S1x32.Broadcasts S2048x32
  reduces_S2048x32_S2048 : S2048x32.Reduces [1] S2048
  shapeCasts_S2048_S2048x1 : S2048.ShapeCasts S2048x1
  broadcasts_S1x32_S1024x32 : S1x32.Broadcasts S1024x32
  reduces_S1024x32_S1024 : S1024x32.Reduces [1] S1024
  shapeCasts_S1024_S1024x1 : S1024.ShapeCasts S1024x1
  inb_S2048x256_S2048x128_0_0 : ∀ a, (![0, 0] : Fin 2 → Nat) a + S2048x128.size a ≤ S2048x256.size a
  h_S2048x128 : 0 < S2048x128.numel
  inb_S1024x256_S1024x128_0_0 : ∀ a, (![0, 0] : Fin 2 → Nat) a + S1024x128.size a ≤ S1024x256.size a
  h_S1024x128 : 0 < S1024x128.numel
  broadcasts_S2048x1_S2048x128 : S2048x1.Broadcasts S2048x128
  bitsLt_bf16_f32 : FTy.bits .bf16 < FTy.bits .f32
  broadcasts_S1024x1_S1024x128 : S1024x1.Broadcasts S1024x128
  shapeCasts_S2048x1024_S2048x1024 : S2048x1024.ShapeCasts S2048x1024
  inb_S2048x256_S2048x128_0_128 : ∀ a, (![0, 128] : Fin 2 → Nat) a + S2048x128.size a ≤ S2048x256.size a
  inb_S1024x256_S1024x128_0_128 : ∀ a, (![0, 128] : Fin 2 → Nat) a + S1024x128.size a ≤ S1024x256.size a
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x128_S1024x128_S2048x1024_1_1_0_0_n_n_wf : DotDims.WF S2048x128 S1024x128 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x4096.size a
  hwx0_0 : ∀ i : grid0.Coords, EltTy.bits .f32 = 32 ∨ (Rect.block (s := S8192x4096) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x4096.size a
  hwx0_1 : ∀ i : grid0.Coords, EltTy.bits .f32 = 32 ∨ (Rect.block (s := S4096x4096) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x32.size a ≤ S8192x32.size a
  hwx0_2 : ∀ i : grid0.Coords, EltTy.bits .f32 = 32 ∨ (Rect.block (s := S8192x32) S2048x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x32.size a ≤ S4096x32.size a
  hwx0_3 : ∀ i : grid0.Coords, EltTy.bits .f32 = 32 ∨ (Rect.block (s := S4096x32) S1024x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1024.size a ≤ S8192x4096.size a
  hwx0_5 : ∀ i : grid0.Coords, EltTy.bits .f32 = 32 ∨ (Rect.block (s := S8192x4096) S2048x1024.size (cc0_transform_5 i) (hinb0_5 i)).WholeWords (EltTy.packing .f32)

variable [Facts₀]

def dot_S2048x128_S1024x128_S2048x1024_1_1_0_0_n_n : DotDims S2048x128 S1024x128 S2048x1024 where
  lhsContracting := [1]
  rhsContracting := [1]
  lhsNonContracting := [0]
  rhsNonContracting := [0]
  lhsBatch := []
  rhsBatch := []
  wf := dot_S2048x128_S1024x128_S2048x1024_1_1_0_0_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2048x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2048x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S8192x32 : Shape := ⟨2, ![8192, 32]⟩
abbrev S4096x4096 : Shape := ⟨2, ![4096, 4096]⟩
abbrev S32x32 : Shape := ⟨2, ![32, 32]⟩
abbrev S4096 : Shape := ⟨1, ![4096]⟩
abbrev S8192x32x128 : Shape := ⟨3, ![8192, 32, 128]⟩
abbrev S32x128x32 : Shape := ⟨3, ![32, 128, 32]⟩
abbrev S4096x32 : Shape := ⟨2, ![4096, 32]⟩
abbrev S4096x32x128 : Shape := ⟨3, ![4096, 32, 128]⟩
abbrev S1x4096 : Shape := ⟨2, ![1, 4096]⟩

abbrev nBuf : Space → Nat
  | .hbm => 17
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x32, .f32⟩
  | .hbm, ⟨2, _⟩ => ⟨S4096x4096, .f32⟩
  | .hbm, ⟨3, _⟩ => ⟨S32x32, .f32⟩
  | .hbm, ⟨4, _⟩ => ⟨S4096, .f32⟩
  | .hbm, ⟨5, _⟩ => ⟨S8192x32x128, .f32⟩
  | .hbm, ⟨6, _⟩ => ⟨S8192x4096, .f32⟩
  | .hbm, ⟨7, _⟩ => ⟨S32x128x32, .f32⟩
  | .hbm, ⟨8, _⟩ => ⟨S4096x32, .f32⟩
  | .hbm, ⟨9, _⟩ => ⟨S4096x32x128, .f32⟩
  | .hbm, ⟨10, _⟩ => ⟨S4096x4096, .f32⟩
  | .hbm, ⟨11, _⟩ => ⟨S8192x4096, .f32⟩
  | .hbm, ⟨12, _⟩ => ⟨S4096x4096, .f32⟩
  | .hbm, ⟨13, _⟩ => ⟨S8192x4096, .f32⟩
  | .hbm, ⟨14, _⟩ => ⟨S1x4096, .f32⟩
  | .hbm, ⟨15, _⟩ => ⟨S8192x4096, .f32⟩
  | .hbm, ⟨16, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S8192x32_S8192x32x128_0_1 : S8192x32.BroadcastsInDim S8192x32x128 (![0, 1] : Fin 2 → Fin S8192x32x128.rank)
  shapeCasts_S8192x32x128_S8192x4096 : S8192x32x128.ShapeCasts S8192x4096
  bcast_S32x32_S32x128x32_0_2 : S32x32.BroadcastsInDim S32x128x32 (![0, 2] : Fin 2 → Fin S32x128x32.rank)
  shapeCasts_S32x128x32_S4096x32 : S32x128x32.ShapeCasts S4096x32
  bcast_S4096x32_S4096x32x128_0_1 : S4096x32.BroadcastsInDim S4096x32x128 (![0, 1] : Fin 2 → Fin S4096x32x128.rank)
  shapeCasts_S4096x32x128_S4096x4096 : S4096x32x128.ShapeCasts S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.CaseValues.lean ====
/-
  What one grid point leaves in the output block, case by case.

  At a point with contraction coordinate `k` the body adds to the output block the products of two consecutive
  128-wide slices of the activation and weight blocks, each scaled by its own column of the scale blocks: `step`.
  At the first contraction step (`k = 0`) it starts from the zero block; at the last (`k = 15`) it then adds the bias
  row to every row. Between, it continues from what the point before left.
-/
import proofs.«115510_j10084583211483_2_alg».proof.Proof.Gen.KernelIdeal.Frame
import Idealize.ShloMosaic.Lib.Pipeline.Value
import Idealize.ShloMosaic.Lib.Tactic

noncomputable section

namespace Cert.KernelIdeal.Steps

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- A load of the whole block after a list of stores whose LAST one wrote the whole block reads that store's value. -/
theorem readCov_cons_whole {sig : RefSig} {κ : Kind} {sp : Space} {S : Shape} {e : EltTy} {Val : EltTy → Type}
    [∀ e, Nonempty (Val e)] (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- ONE CONTRACTION STEP on the output block `acc`: the first 128 contraction positions of the activation block `x0`
    and of the weight block `x1`, scaled by column `2k` of the scale blocks `x2`, `x3`, multiplied and added; then
    the second 128 positions, scaled by column `2k + 1`, likewise (`k` the point's contraction coordinate). -/
def step (i : grid0.Coords) (x0 : Vec F S2048x256 .f32) (x1 : Vec F S1024x256 .f32) (x2 : Vec F S2048x32 .f32)
    (x3 : Vec F S1024x32 .f32) (acc : Vec F S2048x1024 .f32) : Vec F S2048x1024 .f32 :=
  k0_pay1 x2 (k0_pay4 x3) (iota Kind.tc S1x32 32 [1] iota_S1x32_d1_w32) (Scalar.muli (BitVec.ofNat 32 (i 2).val) 2#32)
    (View.ld x0 (Rect.unit ![0, 128] ![2048, 128] inb_S2048x256_S2048x128_0_128))
    (View.ld x1 (Rect.unit ![0, 128] ![1024, 128] inb_S1024x256_S1024x128_0_128))
    (k0_pay5 i x2 x3 (View.ld x0 (Rect.unit ![0, 0] ![2048, 128] inb_S2048x256_S2048x128_0_0))
      (View.ld x1 (Rect.unit ![0, 0] ![1024, 128] inb_S1024x256_S1024x128_0_0)) acc)

/-- A middle point (`0 < k < 15`): one step on what the point before left. -/
theorem out_B (c : Dev nD) (i : grid0.Coords) (a3 : Memref sig .tc .vmem S2048x256 .f32) (h3 : a3.IsWhole) (a4 : Memref sig .tc .vmem S1024x256 .f32) (h4 : a4.IsWhole) (a5 : Memref sig .tc .vmem S2048x32 .f32) (h5 : a5.IsWhole) (a6 : Memref sig .tc .vmem S1024x32 .f32) (h6 : a6.IsWhole) (a7 : Memref sig .tc .vmem S1x1024 .f32) (h7 : a7.IsWhole) (a8 : Memref sig .tc .vmem S2048x1024 .f32) (h8 : a8.IsWhole) (hc0 : ¬cond0_0 i) (hc1 : ¬cond0_1 i) (x0 : Vec F S2048x256 .f32) (x1 : Vec F S1024x256 .f32) (x2 : Vec F S2048x32 .f32) (x3 : Vec F S1024x32 .f32) (x4 : Vec F S1x1024 .f32) (xo5 : Vec F S2048x1024 .f32) :
    out0_B_5 c i a3 h3 a4 h4 a5 h5 a6 h6 a7 h7 a8 h8 hc0 hc1 x0 x1 x2 x3 x4 xo5 = step i x0 x1 x2 x3 xo5 := by
  unfold out0_B_5
  rw [View.read_writes_eq_canon _ _ _ (cover0_B_5 c i a3 h3 a4 h4 a5 h5 a6 h6 a7 h7 a8 h8 hc0 hc1 x0 x1 x2 x3 x4 xo5)]
  unfold kernelRun0_B
  dsimp only
  sl_unfold_words
  rw [View.canon_cons_unit_zero (S := S2048x1024) hz, View.readCov_unit_zero (S := S2048x1024) _ hz]
  simp only [View.readAt_eq_ld, h3.read_unread, h4.read_unread, h5.read_unread, h6.read_unread, h8.read_unread,
    View.ld_unit_zero (S := S2048x32) hz, View.ld_unit_zero (S := S1024x32) hz, View.ld_unit_zero (S := S2048x1024) hz]
  rfl

/-- The first point of a run (`k = 0`): one step on the zero block. -/
theorem out_A (c : Dev nD) (i : grid0.Coords) (a3 : Memref sig .tc .vmem S2048x256 .f32) (h3 : a3.IsWhole) (a4 : Memref sig .tc .vmem S1024x256 .f32) (h4 : a4.IsWhole) (a5 : Memref sig .tc .vmem S2048x32 .f32) (h5 : a5.IsWhole) (a6 : Memref sig .tc .vmem S1024x32 .f32) (h6 : a6.IsWhole) (a7 : Memref sig .tc .vmem S1x1024 .f32) (h7 : a7.IsWhole) (a8 : Memref sig .tc .vmem S2048x1024 .f32) (h8 : a8.IsWhole) (hc0 : cond0_0 i) (hc1 : ¬cond0_1 i) (x0 : Vec F S2048x256 .f32) (x1 : Vec F S1024x256 .f32) (x2 : Vec F S2048x32 .f32) (x3 : Vec F S1024x32 .f32) (x4 : Vec F S1x1024 .f32) :
    out0_A_5 c i a3 h3 a4 h4 a5 h5 a6 h6 a7 h7 a8 h8 hc0 hc1 x0 x1 x2 x3 x4 = step i x0 x1 x2 x3 k0_pay3 := by
  unfold out0_A_5
  rw [View.read_writes_eq_canon _ _ _ (cover0_A_5 c i a3 h3 a4 h4 a5 h5 a6 h6 a7 h7 a8 h8 hc0 hc1 x0 x1 x2 x3 x4)]
  unfold kernelRun0_A
  dsimp only
  sl_unfold_words
  rw [View.canon_cons_unit_zero (S := S2048x1024) hz, readCov_cons_whole (S := S2048x1024) _ hz,
    View.readCov_unit_zero (S := S2048x1024) _ hz]
  simp only [View.readAt_eq_ld, h3.read_unread, h4.read_unread, h5.read_unread, h6.read_unread,
    View.ld_unit_zero (S := S2048x32) hz, View.ld_unit_zero (S := S1024x32) hz]
  rfl

/-- The last point of a run (`k = 15`): one step on what the point before left, then the bias row `x4` added to
    every row (`k0_pay2`). -/
theorem out_C (c : Dev nD) (i : grid0.Coords) (a3 : Memref sig .tc .vmem S2048x256 .f32) (h3 : a3.IsWhole) (a4 : Memref sig .tc .vmem S1024x256 .f32) (h4 : a4.IsWhole) (a5 : Memref sig .tc .vmem S2048x32 .f32) (h5 : a5.IsWhole) (a6 : Memref sig .tc .vmem S1024x32 .f32) (h6 : a6.IsWhole) (a7 : Memref sig .tc .vmem S1x1024 .f32) (h7 : a7.IsWhole) (a8 : Memref sig .tc .vmem S2048x1024 .f32) (h8 : a8.IsWhole) (hc0 : ¬cond0_0 i) (hc1 : cond0_1 i) (x0 : Vec F S2048x256 .f32) (x1 : Vec F S1024x256 .f32) (x2 : Vec F S2048x32 .f32) (x3 : Vec F S1024x32 .f32) (x4 : Vec F S1x1024 .f32) (xo5 : Vec F S2048x1024 .f32) :
    out0_C_5 c i a3 h3 a4 h4 a5 h5 a6 h6 a7 h7 a8 h8 hc0 hc1 x0 x1 x2 x3 x4 xo5
      = k0_pay2 (step i x0 x1 x2 x3 xo5) x4 := by
  unfold out0_C_5
  rw [View.read_writes_eq_canon _ _ _ (cover0_C_5 c i a3 h3 a4 h4 a5 h5 a6 h6 a7 h7 a8 h8 hc0 hc1 x0 x1 x2 x3 x4 xo5)]
  unfold kernelRun0_C
  dsimp only
  sl_unfold_words
  rw [View.canon_cons_unit_zero (S := S2048x1024) hz, readCov_cons_whole (S := S2048x1024) _ hz,
    View.readCov_unit_zero (S := S2048x1024) _ hz]
  simp only [View.readAt_eq_ld, h3.read_unread, h4.read_unread, h5.read_unread, h6.read_unread, h7.read_unread,
    h8.read_unread, View.ld_unit_zero (S := S2048x32) hz, View.ld_unit_zero (S := S1024x32) hz,
    View.ld_unit_zero (S := S2048x1024) hz, View.ld_unit_zero (S := S1x1024) hz]
  rfl

end Cert.KernelIdeal.Steps

end
-- ==== Proof.HalfStep.lean ====
/-
  Half of a contraction step, and what it is at an index over the extended reals.

  Each of the body's two accumulating stores has the same form. A one-hot row `mask kb` over the 32 scale columns
  (1 at lane `kb`, 0 elsewhere) is multiplied into a scale block and summed along the columns: that SELECTS column
  `kb` of the block, one scale per row. The selected scale is spread over 128 contraction positions and multiplied into
  a 128-wide slice of the activation block (rows of the output) and of the weight block (columns of the output); the
  two scaled slices are contracted against each other and the result added to the output block.

  At an index `(p, q)` of the output block this is
      acc (p, q) + ∑ kk < 128, (xl (p, kk) · ∑ j, x2 (p, j) · mask j) · (xr (q, kk) · ∑ j, x3 (q, j) · mask j),
  the rounding to sixteen bits on the way into the product being the identity on extended reals.
-/
import proofs.«115510_j10084583211483_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Half

open Cert.KernelIdeal Cert.KernelIdeal.Gen Idealize.ShloMosaic Idealize.ShloMosaic.ValueIdx

variable {F : FTy → Type} [FloatOps F]

/-- The one-hot row over the 32 scale columns: 1 at lane `kb`, 0 elsewhere (an integer comparison of the lane number
    with `kb`, widened and converted). -/
def mask (kb : BitVec 32) : FVec F S1x32 .f32 :=
  sitofp .f32 (extui 32 (cmpi .eq (iota Kind.tc S1x32 32 [1] iota_S1x32_d1_w32) (broadcast S1x32 kb)) natLt_1_32)

/-- The scale of each of 2048 rows that the row `mk` selects from the block `x2`, spread over 128 positions. -/
def col2048 (x2 : FVec F S2048x32 .f32) (mk : FVec F S1x32 .f32) : FVec F S2048x128 .f32 :=
  broadcastTo S2048x128 (shapeCast S2048x1 (multiReduction .add [1] S2048 (mulf x2 (broadcastTo S2048x32 mk broadcasts_S1x32_S2048x32))
    0x00000000#32 reduces_S2048x32_S2048 (.inl rfl) rfl) shapeCasts_S2048_S2048x1) broadcasts_S2048x1_S2048x128

/-- The scale of each of 1024 rows that the row `mk` selects from the block `x3`, spread over 128 positions. -/
def col1024 (x3 : FVec F S1024x32 .f32) (mk : FVec F S1x32 .f32) : FVec F S1024x128 .f32 :=
  broadcastTo S1024x128 (shapeCast S1024x1 (multiReduction .add [1] S1024 (mulf x3 (broadcastTo S1024x32 mk broadcasts_S1x32_S1024x32))
    0x00000000#32 reduces_S1024x32_S1024 (.inl rfl) rfl) shapeCasts_S1024_S1024x1) broadcasts_S1024x1_S1024x128

/-- HALF A STEP: the slices `xl`, `xr` scaled by the selected columns, contracted, added to `acc`. -/
def half (xl : FVec F S2048x128 .f32) (xr : FVec F S1024x128 .f32) (x2 : FVec F S2048x32 .f32) (x3 : FVec F S1024x32 .f32)
    (mk : FVec F S1x32 .f32) (acc : FVec F S2048x1024 .f32) : FVec F S2048x1024 .f32 :=
  addf (shapeCast S2048x1024 acc shapeCasts_S2048x1024_S2048x1024)
    (matmul dot_S2048x128_S1024x128_S2048x1024_1_1_0_0_n_n none (truncf .bf16 (mulf xl (col2048 x2 mk)) bitsLt_bf16_f32)
      (truncf .bf16 (mulf xr (col1024 x3 mk)) bitsLt_bf16_f32) (constant S2048x1024 .f32 0x00000000#32))

/-- The first accumulating store's value is the half step at column `2k`. -/
theorem pay5_eq (i : grid0.Coords) (v3 : Vec F S2048x32 .f32) (v4 : Vec F S1024x32 .f32) (v21 : Vec F S2048x128 .f32)
    (v22 : Vec F S1024x128 .f32) (v30 : Vec F S2048x1024 .f32) :
    k0_pay5 i v3 v4 v21 v22 v30
      = half v21 v22 v3 (k0_pay4 v4) (mask (Scalar.addi (Scalar.muli (BitVec.ofNat 32 (i 2).val) 2#32) 0#32)) v30 := rfl

/-- The second accumulating store's value is the half step at the column after `v34`. -/
theorem pay1_eq (v3 : Vec F S2048x32 .f32) (v5 : FVec F S1024x32 .f32) (v34 : BitVec 32) (v48 : Vec F S2048x128 .f32)
    (v49 : Vec F S1024x128 .f32) (v57 : Vec F S2048x1024 .f32) :
    k0_pay1 v3 v5 (iota Kind.tc S1x32 32 [1] iota_S1x32_d1_w32) v34 v48 v49 v57
      = half v48 v49 v3 v5 (mask (Scalar.addi v34 1#32)) v57 := rfl

/-! ## At the extended reals -/

/-- An integer equality test, widened to 32 bits and read as a signed integer, is 1 or 0. -/
theorem cmp_toReal (a b : BitVec 32) :
    ((((IntOp.cmpi .eq a b).setWidth 32).toInt : ℝ) : EReal) = if a = b then 1 else 0 := by
  by_cases h : a = b
  · have e : IntOp.cmpi .eq a b = 1#1 := by simp [IntOp.cmpi, h]
    rw [e, if_pos h, show ((1#1 : BitVec 1).setWidth 32).toInt = 1 from by decide]; simp
  · have hb : (a == b) = false := beq_eq_false_iff_ne.mpr h
    have e : IntOp.cmpi .eq a b = 0#1 := by unfold IntOp.cmpi; simp only [hb]; rfl
    rw [e, if_neg h, show ((0#1 : BitVec 1).setWidth 32).toInt = 0 from by decide]; simp

/-- The one-hot row at lane `j`: 1 when `j` is the selected column, else 0. -/
theorem mask_apply (K : ℕ) (hK : K < 32) (j : Fin 32) :
    mask (F := Ideal) (BitVec.ofNat 32 K) (ix2 (0 : Fin 1) j) = if j.val = K then 1 else 0 := by
  unfold mask
  show ((((IntOp.cmpi .eq (iota Kind.tc S1x32 32 [1] iota_S1x32_d1_w32 (ix2 (0 : Fin 1) j)) (BitVec.ofNat 32 K)).setWidth 32).toInt : ℝ) : EReal) = _
  rw [iota_single_apply, cmp_toReal]
  have hj : j.val < 32 := j.isLt
  have e : (BitVec.ofNat 32 ((ix2 (0 : Fin 1) j : S1x32.Idx) 1).val = BitVec.ofNat 32 K) ↔ j.val = K := by
    show (BitVec.ofNat 32 j.val = BitVec.ofNat 32 K) ↔ j.val = K
    constructor
    · intro h
      have h' := congrArg BitVec.toNat h
      rw [BitVec.toNat_ofNat, BitVec.toNat_ofNat, Nat.mod_eq_of_lt (by omega), Nat.mod_eq_of_lt (by omega)] at h'
      exact h'
    · intro h; rw [h]
  simp only [e]

/-- A sum against a one-hot row picks the selected term: every other term is a product with zero. -/
theorem sum_onehot {n : ℕ} (f : Fin n → EReal) (K : ℕ) (hK : K < n) :
    ∑ j : Fin n, f j * (if j.val = K then (1 : EReal) else 0) = f ⟨K, hK⟩ := by
  rw [Finset.sum_eq_single (⟨K, hK⟩ : Fin n)]
  · simp
  · intro j _ hj
    have : j.val ≠ K := fun h => hj (Fin.ext h)
    simp [this]
  · intro h; exact absurd (Finset.mem_univ _) h

/-- The selected scale of row `p`, at any of the 128 positions: the scale block's row `p` summed against the row `mk`. -/
theorem col2048_apply (x2 : FVec Ideal S2048x32 .f32) (mk : FVec Ideal S1x32 .f32) (p : Fin 2048) (kk : Fin 128) :
    col2048 x2 mk (ix2 p kk) = ∑ j : Fin 32, x2 (ix2 p j) * mk (ix2 (0 : Fin 1) j) := by
  unfold col2048
  refine (broadcastTo_apply _ broadcasts_S2048x1_S2048x128 (ix2 p kk) (ix2 p (0 : Fin 1)) (fun a => ?_)).trans ?_
  · match a with
    | ⟨0, _⟩ => show p.val = if (2048 : ℕ) = 1 then 0 else p.val; rw [if_neg (by decide)]
    | ⟨1, _⟩ => show 0 = if (1 : ℕ) = 1 then 0 else kk.val; rw [if_pos rfl]
  refine (shapeCast_apply _ shapeCasts_S2048_S2048x1 (ix2 p (0 : Fin 1)) (ix1 p) ?_).trans ?_
  · rw [Shape.rowMajor_val_one, Shape.rowMajor_val_two]; show p.val = p.val * 1 + 0; omega
  refine (Ideal.multiReduction_add_single _ 0x00000000#32 reduces_S2048x32_S2048 (.inl rfl) rfl (ix1 p)).trans ?_
  refine Finset.sum_congr rfl fun j _ => ?_
  have e : reduces_S2048x32_S2048.lift (ix1 p) j = ix2 p j := funext fun a => Fin.ext (by
    match a with
    | ⟨0, _⟩ => rfl
    | ⟨1, _⟩ => rfl)
  rw [e]
  show x2 (ix2 p j) * broadcastTo S2048x32 mk broadcasts_S1x32_S2048x32 (ix2 p j) = _
  refine congrArg (x2 (ix2 p j) * ·) (broadcastTo_apply mk broadcasts_S1x32_S2048x32 (ix2 p j) (ix2 (0 : Fin 1) j) (fun a => ?_))
  match a with
  | ⟨0, _⟩ => show 0 = if (1 : ℕ) = 1 then 0 else p.val; rw [if_pos rfl]
  | ⟨1, _⟩ => show j.val = if (32 : ℕ) = 1 then 0 else j.val; rw [if_neg (by decide)]

/-- The selected scale of row `q` of the weight block, at any of the 128 positions. -/
theorem col1024_apply (x3 : FVec Ideal S1024x32 .f32) (mk : FVec Ideal S1x32 .f32) (q : Fin 1024) (kk : Fin 128) :
    col1024 x3 mk (ix2 q kk) = ∑ j : Fin 32, x3 (ix2 q j) * mk (ix2 (0 : Fin 1) j) := by
  unfold col1024
  refine (broadcastTo_apply _ broadcasts_S1024x1_S1024x128 (ix2 q kk) (ix2 q (0 : Fin 1)) (fun a => ?_)).trans ?_
  · match a with
    | ⟨0, _⟩ => show q.val = if (1024 : ℕ) = 1 then 0 else q.val; rw [if_neg (by decide)]
    | ⟨1, _⟩ => show 0 = if (1 : ℕ) = 1 then 0 else kk.val; rw [if_pos rfl]
  refine (shapeCast_apply _ shapeCasts_S1024_S1024x1 (ix2 q (0 : Fin 1)) (ix1 q) ?_).trans ?_
  · rw [Shape.rowMajor_val_one, Shape.rowMajor_val_two]; show q.val = q.val * 1 + 0; omega
  refine (Ideal.multiReduction_add_single _ 0x00000000#32 reduces_S1024x32_S1024 (.inl rfl) rfl (ix1 q)).trans ?_
  refine Finset.sum_congr rfl fun j _ => ?_
  have e : reduces_S1024x32_S1024.lift (ix1 q) j = ix2 q j := funext fun a => Fin.ext (by
    match a with
    | ⟨0, _⟩ => rfl
    | ⟨1, _⟩ => rfl)
  rw [e]
  show x3 (ix2 q j) * broadcastTo S1024x32 mk broadcasts_S1x32_S1024x32 (ix2 q j) = _
  refine congrArg (x3 (ix2 q j) * ·) (broadcastTo_apply mk broadcasts_S1x32_S1024x32 (ix2 q j) (ix2 (0 : Fin 1) j) (fun a => ?_))
  match a with
  | ⟨0, _⟩ => show 0 = if (1 : ℕ) = 1 then 0 else q.val; rw [if_pos rfl]
  | ⟨1, _⟩ => show j.val = if (32 : ℕ) = 1 then 0 else j.val; rw [if_neg (by decide)]

/-! ## The four slices of the activation and weight blocks -/

/-- The first 128 positions of the activation block. -/
theorem ld_x_lo (x0 : Vec F S2048x256 .f32) (p : Fin 2048) (kk : Fin 128) :
    View.ld x0 (Rect.unit ![0, 0] ![2048, 128] inb_S2048x256_S2048x128_0_0) (ix2 p kk)
      = x0 (ix2 p ⟨kk.val, Nat.lt_of_lt_of_le kk.isLt (by decide)⟩) := by
  show x0 _ = x0 _
  refine congrArg x0 (funext fun a => Fin.ext ?_)
  match a with
  | ⟨0, _⟩ => show 0 + 1 * p.val = p.val; omega
  | ⟨1, _⟩ => show 0 + 1 * kk.val = kk.val; omega

/-- The second 128 positions of the activation block. -/
theorem ld_x_hi (x0 : Vec F S2048x256 .f32) (p : Fin 2048) (kk : Fin 128) :
    View.ld x0 (Rect.unit ![0, 128] ![2048, 128] inb_S2048x256_S2048x128_0_128) (ix2 p kk)
      = x0 (ix2 p ⟨128 + kk.val, by have := kk.isLt; omega⟩) := by
  show x0 _ = x0 _
  refine congrArg x0 (funext fun a => Fin.ext ?_)
  match a with
  | ⟨0, _⟩ => show 0 + 1 * p.val = p.val; omega
  | ⟨1, _⟩ => show 128 + 1 * kk.val = 128 + kk.val; omega

/-- The first 128 positions of the weight block. -/
theorem ld_w_lo (x1 : Vec F S1024x256 .f32) (q : Fin 1024) (kk : Fin 128) :
    View.ld x1 (Rect.unit ![0, 0] ![1024, 128] inb_S1024x256_S1024x128_0_0) (ix2 q kk)
      = x1 (ix2 q ⟨kk.val, Nat.lt_of_lt_of_le kk.isLt (by decide)⟩) := by
  show x1 _ = x1 _
  refine congrArg x1 (funext fun a => Fin.ext ?_)
  match a with
  | ⟨0, _⟩ => show 0 + 1 * q.val = q.val; omega
  | ⟨1, _⟩ => show 0 + 1 * kk.val = kk.val; omega

/-- The second 128 positions of the weight block. -/
theorem ld_w_hi (x1 : Vec F S1024x256 .f32) (q : Fin 1024) (kk : Fin 128) :
    View.ld x1 (Rect.unit ![0, 128] ![1024, 128] inb_S1024x256_S1024x128_0_128) (ix2 q kk)
      = x1 (ix2 q ⟨128 + kk.val, by have := kk.isLt; omega⟩) := by
  show x1 _ = x1 _
  refine congrArg x1 (funext fun a => Fin.ext ?_)
  match a with
  | ⟨0, _⟩ => show 0 + 1 * q.val = q.val; omega
  | ⟨1, _⟩ => show 128 + 1 * kk.val = 128 + kk.val; omega

/-! ## The product at an index -/

theorem lhs_0 (i : S2048x1024.Idx) (k : dot_S2048x128_S1024x128_S2048x1024_1_1_0_0_n_n.contr.Idx) : (dot_S2048x128_S1024x128_S2048x1024_1_1_0_0_n_n.lhsIdx i k 0).val = (i 0).val := by
  unfold DotDims.lhsIdx
  rw [dif_neg (show ¬(0 : Fin S2048x128.rank) ∈ dot_S2048x128_S1024x128_S2048x1024_1_1_0_0_n_n.lhsBatch by decide),
    dif_pos (show (0 : Fin S2048x128.rank) ∈ dot_S2048x128_S1024x128_S2048x1024_1_1_0_0_n_n.lhsNonContracting by decide)]
  rfl

theorem rhs_0 (i : S2048x1024.Idx) (k : dot_S2048x128_S1024x128_S2048x1024_1_1_0_0_n_n.contr.Idx) : (dot_S2048x128_S1024x128_S2048x1024_1_1_0_0_n_n.rhsIdx i k 0).val = (i 1).val := by
  unfold DotDims.rhsIdx
  rw [dif_neg (show ¬(0 : Fin S1024x128.rank) ∈ dot_S2048x128_S1024x128_S2048x1024_1_1_0_0_n_n.rhsBatch by decide),
    dif_pos (show (0 : Fin S1024x128.rank) ∈ dot_S2048x128_S1024x128_S2048x1024_1_1_0_0_n_n.rhsNonContracting by decide)]
  rfl

/-- Into the zero block, the product of a [2048, 128] and a [1024, 128] slice contracted along their 128 positions is,
    at `(p, q)`, the sum over the positions of row `p` of the first times row `q` of the second. -/
theorem matmul_at {φ₁ φ₂ : FTy} (l : FVec Ideal S2048x128 φ₁) (r : FVec Ideal S1024x128 φ₂) (p : Fin 2048) (q : Fin 1024) :
    matmul dot_S2048x128_S1024x128_S2048x1024_1_1_0_0_n_n none l r (constant S2048x1024 .f32 0x00000000#32) (ix2 p q) = ∑ kk : Fin 128, l (ix2 p kk) * r (ix2 q kk) := by
  simp only [matmul]
  rw [Ideal.matmul_constant_zero_apply, ← Equiv.sum_comp (contrEquiv1 dot_S2048x128_S1024x128_S2048x1024_1_1_0_0_n_n 128 rfl rfl).symm]
  refine Finset.sum_congr rfl fun k _ => ?_
  have hk := contrEquiv1_symm_val dot_S2048x128_S1024x128_S2048x1024_1_1_0_0_n_n 128 rfl rfl k
  have el : dot_S2048x128_S1024x128_S2048x1024_1_1_0_0_n_n.lhsIdx (ix2 p q) ((contrEquiv1 dot_S2048x128_S1024x128_S2048x1024_1_1_0_0_n_n 128 rfl rfl).symm k) = ix2 p k := funext fun a => Fin.ext (by
    match a with
    | ⟨0, _⟩ => exact lhs_0 _ _
    | ⟨1, _⟩ => exact (dot_S2048x128_S1024x128_S2048x1024_1_1_0_0_n_n.lhsIdx_val_of_single rfl _ _).trans hk)
  have er : dot_S2048x128_S1024x128_S2048x1024_1_1_0_0_n_n.rhsIdx (ix2 p q) ((contrEquiv1 dot_S2048x128_S1024x128_S2048x1024_1_1_0_0_n_n 128 rfl rfl).symm k) = ix2 q k := funext fun a => Fin.ext (by
    match a with
    | ⟨0, _⟩ => exact rhs_0 _ _
    | ⟨1, _⟩ => exact (dot_S2048x128_S1024x128_S2048x1024_1_1_0_0_n_n.rhsIdx_val_of_single rfl _ _).trans hk)
  rw [el, er]

/-- The identity cast of the weight scale block. -/
theorem pay4_eq (v4 : Vec F S1024x32 .f32) : k0_pay4 v4 = v4 := by
  unfold k0_pay4; exact shapeCast_self _ _

/-- HALF A STEP AT AN INDEX: the block's entry plus the 128 products of the scaled slices. -/
theorem half_apply (xl : FVec Ideal S2048x128 .f32) (xr : FVec Ideal S1024x128 .f32) (x2 : FVec Ideal S2048x32 .f32)
    (x3 : FVec Ideal S1024x32 .f32) (mk : FVec Ideal S1x32 .f32) (acc : FVec Ideal S2048x1024 .f32) (p : Fin 2048) (q : Fin 1024) :
    half xl xr x2 x3 mk acc (ix2 p q)
      = acc (ix2 p q) + ∑ kk : Fin 128, (xl (ix2 p kk) * ∑ j : Fin 32, x2 (ix2 p j) * mk (ix2 (0 : Fin 1) j))
          * (xr (ix2 q kk) * ∑ j : Fin 32, x3 (ix2 q j) * mk (ix2 (0 : Fin 1) j)) := by
  unfold half
  rw [addf_apply, shapeCast_self, matmul_at]
  refine congrArg (acc (ix2 p q) + ·) (Finset.sum_congr rfl fun kk _ => ?_)
  rw [truncf_apply, truncf_apply, mulf_apply, mulf_apply, col2048_apply, col1024_apply]

end Cert.KernelIdeal.Half

end
-- ==== Proof.StepAt.lean ====
/-
  One contraction step at an index of the output block, over the extended reals.

  With `k` the point's contraction coordinate, the two one-hot rows select columns `2k` and `2k + 1` of the scale
  blocks (every other column is multiplied by zero, the selected one by one), so a step adds to entry `(p, q)`
      ∑ kk < 128, (x0 (p, kk) · x2 (p, 2k)) · (x1 (q, kk) · x3 (q, 2k))
    + ∑ kk < 128, (x0 (p, 128 + kk) · x2 (p, 2k + 1)) · (x1 (q, 128 + kk) · x3 (q, 2k + 1)).
-/
import proofs.«115510_j10084583211483_2_alg».proof.Proof.CaseValues
import proofs.«115510_j10084583211483_2_alg».proof.Proof.HalfStep

noncomputable section

namespace Cert.KernelIdeal.Steps

open Cert.KernelIdeal Cert.KernelIdeal.Gen Cert.KernelIdeal.Half Idealize.ShloMosaic Idealize.ShloMosaic.ValueIdx

/-- The first selected column is `2k` … -/
theorem kb_lo (k : ℕ) (hk : k < 16) :
    Scalar.addi (Scalar.muli (BitVec.ofNat 32 k) 2#32) 0#32 = BitVec.ofNat 32 (2 * k) :=
  (by decide +kernel : ∀ k : Fin 16, Scalar.addi (Scalar.muli (BitVec.ofNat 32 k.val) 2#32) 0#32 = BitVec.ofNat 32 (2 * k.val)) ⟨k, hk⟩

/-- … and the second `2k + 1` (32-bit arithmetic on a coordinate below 16 does not wrap). -/
theorem kb_hi (k : ℕ) (hk : k < 16) :
    Scalar.addi (Scalar.muli (BitVec.ofNat 32 k) 2#32) 1#32 = BitVec.ofNat 32 (2 * k + 1) :=
  (by decide +kernel : ∀ k : Fin 16, Scalar.addi (Scalar.muli (BitVec.ofNat 32 k.val) 2#32) 1#32 = BitVec.ofNat 32 (2 * k.val + 1)) ⟨k, hk⟩

/-- ONE STEP AT AN INDEX. -/
theorem step_apply (i : grid0.Coords) (k : ℕ) (hk : k < 16) (hik : (i 2).val = k) (x0 : Vec Ideal S2048x256 .f32)
    (x1 : Vec Ideal S1024x256 .f32) (x2 : Vec Ideal S2048x32 .f32) (x3 : Vec Ideal S1024x32 .f32)
    (acc : Vec Ideal S2048x1024 .f32) (p : Fin 2048) (q : Fin 1024) :
    step i x0 x1 x2 x3 acc (ix2 p q)
      = (acc (ix2 p q)
          + ∑ kk : Fin 128, (x0 (ix2 p ⟨kk.val, Nat.lt_of_lt_of_le kk.isLt (by decide)⟩) * x2 (ix2 p ⟨2 * k, by omega⟩))
              * (x1 (ix2 q ⟨kk.val, Nat.lt_of_lt_of_le kk.isLt (by decide)⟩) * x3 (ix2 q ⟨2 * k, by omega⟩)))
        + ∑ kk : Fin 128, (x0 (ix2 p ⟨128 + kk.val, by have := kk.isLt; omega⟩) * x2 (ix2 p ⟨2 * k + 1, by omega⟩))
              * (x1 (ix2 q ⟨128 + kk.val, by have := kk.isLt; omega⟩) * x3 (ix2 q ⟨2 * k + 1, by omega⟩)) := by
  unfold step
  rw [pay1_eq, pay5_eq, half_apply, half_apply, pay4_eq, hik, kb_lo k hk, kb_hi k hk]
  simp only [mask_apply (2 * k) (by omega), mask_apply (2 * k + 1) (by omega),
    sum_onehot (fun j => x2 (ix2 p j)) (2 * k) (by omega), sum_onehot (fun j => x2 (ix2 p j)) (2 * k + 1) (by omega),
    sum_onehot (fun j => x3 (ix2 q j)) (2 * k) (by omega), sum_onehot (fun j => x3 (ix2 q j)) (2 * k + 1) (by omega)]
  refine congrArg₂ (· + ·) (congrArg (acc (ix2 p q) + ·) (Finset.sum_congr rfl fun kk _ => ?_))
    (Finset.sum_congr rfl fun kk _ => ?_)
  · exact congrArg₂ (· * ·) (congrArg (· * _) (ld_x_lo x0 p kk)) (congrArg (· * _) (ld_w_lo x1 q kk))
  · exact congrArg₂ (· * ·) (congrArg (· * _) (ld_x_hi x0 p kk)) (congrArg (· * _) (ld_w_hi x1 q kk))

end Cert.KernelIdeal.Steps

end
-- ==== Proof.Spec.lean ====
/-
  The block-scaled matrix product with bias, as ONE function of the five argument arrays, and the regrouping of its
  contraction.

  For activations `X` [8192, 4096] with one scale per row and per block of 128 contraction positions (`XS` [8192, 32]),
  weights `W` [4096, 4096] with one scale per block of 128 rows and per block of 128 contraction positions
  (`WS` [32, 32]) and a bias `B` [4096], the result at row `r` and column `n` is

      ∑ k < 4096, (X r k · XS r (k / 128)) · (W n k · WS (n / 128) (k / 128))  +  B n.

  Every array is read at natural-number coordinates (`at2`, `at1`: the entry inside the extents, zero outside; the
  sums below never leave the extents), so that an index identity between two ways of reaching the same entry is
  arithmetic on naturals.

  The contraction over the 4096 positions, taken in position order, is the same extended real as the sum over sixteen
  consecutive steps of 256 positions, each step the sum of its first and of its second 128 positions: addition of
  extended reals is commutative and associative, and nothing else is used (no entry needs to be finite).
-/
import Idealize.ShloMosaic.PureOps.Ideal
import Idealize.ShloMosaic.Lib.ValueIdx

noncomputable section

namespace Cert.BlockScaled

open Idealize.ShloMosaic Idealize.ShloMosaic.ValueIdx

/-- A rank-two array at natural coordinates: its entry inside the extents, zero outside. -/
def at2 {n0 n1 : ℕ} (X : (⟨2, ![n0, n1]⟩ : Shape).Idx → EReal) (r k : ℕ) : EReal :=
  if h : r < n0 ∧ k < n1 then X (ix2 ⟨r, h.1⟩ ⟨k, h.2⟩) else 0

/-- A rank-one array at a natural coordinate: its entry inside the extent, zero outside. -/
def at1 {n : ℕ} (B : (⟨1, ![n]⟩ : Shape).Idx → EReal) (k : ℕ) : EReal :=
  if h : k < n then B (ix1 ⟨k, h⟩) else 0

/-- An entry read at an index is the array at that index's two coordinates. -/
theorem at2_eq {n0 n1 : ℕ} (X : (⟨2, ![n0, n1]⟩ : Shape).Idx → EReal) (e : (⟨2, ![n0, n1]⟩ : Shape).Idx) (r k : ℕ)
    (h0 : (e 0).val = r) (h1 : (e 1).val = k) : X e = at2 X r k := by
  subst h0 h1
  unfold at2
  rw [dif_pos ⟨idx2_lt0 e, idx2_lt1 e⟩]
  exact congrArg X (eq_ix2 e)

/-- An entry read at an index is the array at that index's coordinate. -/
theorem at1_eq {n : ℕ} (B : (⟨1, ![n]⟩ : Shape).Idx → EReal) (e : (⟨1, ![n]⟩ : Shape).Idx) (k : ℕ)
    (h0 : (e 0).val = k) : B e = at1 B k := by
  subst h0
  unfold at1
  rw [dif_pos (show (e 0).val < n from (e 0).isLt)]
  exact congrArg B (eq_ix1 e)

variable (X : (⟨2, ![8192, 4096]⟩ : Shape).Idx → EReal) (XS : (⟨2, ![8192, 32]⟩ : Shape).Idx → EReal)
  (W : (⟨2, ![4096, 4096]⟩ : Shape).Idx → EReal) (WS : (⟨2, ![32, 32]⟩ : Shape).Idx → EReal)
  (B : (⟨1, ![4096]⟩ : Shape).Idx → EReal)

/-- The product's term at contraction position `k`: the scaled activation times the scaled weight. -/
def pterm (r n k : ℕ) : EReal :=
  (at2 X r k * at2 XS r (k / 128)) * (at2 W n k * at2 WS (n / 128) (k / 128))

/-- THE RESULT as one function of the arguments: the whole contraction, then the bias of the column. -/
def G : (⟨2, ![8192, 4096]⟩ : Shape).Idx → EReal :=
  fun i => (∑ k ∈ Finset.range 4096, pterm X XS W WS (i 0).val (i 1).val k) + at1 B (i 1).val

/-- What contraction step `s` (positions `256 s … 256 s + 255`) adds at row `r`, column `n`: its first 128 positions'
    terms, then its second 128 positions' terms. -/
def stepSum (r n s : ℕ) : EReal :=
  (∑ x ∈ Finset.range 128, pterm X XS W WS r n (256 * s + x)) + ∑ x ∈ Finset.range 128, pterm X XS W WS r n (256 * s + 128 + x)

/-- A sum over the first `256 S` naturals is the sum over `S` steps of two runs of 128. -/
theorem sum_range_steps {β : Type*} [AddCommMonoid β] (f : ℕ → β) : ∀ S : ℕ,
    ∑ k ∈ Finset.range (256 * S), f k
      = ∑ s ∈ Finset.range S, ((∑ x ∈ Finset.range 128, f (256 * s + x)) + ∑ x ∈ Finset.range 128, f (256 * s + 128 + x))
  | 0 => by simp
  | S + 1 => by
    rw [Finset.sum_range_succ, ← sum_range_steps f S, show 256 * (S + 1) = 256 * S + (128 + 128) from by ring,
      Finset.sum_range_add, Finset.sum_range_add]
    simp only [Nat.add_assoc]

/-- The result is the sixteen steps' contributions, then the bias. -/
theorem G_eq_steps (i : (⟨2, ![8192, 4096]⟩ : Shape).Idx) :
    G X XS W WS B i = (∑ s ∈ Finset.range 16, stepSum X XS W WS (i 0).val (i 1).val s) + at1 B (i 1).val := by
  unfold G stepSum
  exact congrArg (fun z => z + at1 B (i 1).val)
    (sum_range_steps (fun k => pterm X XS W WS (i 0).val (i 1).val k) 16)

end Cert.BlockScaled

end
-- ==== Proof.BlockReads.lean ====
/-
  What each window's block holds at a grid point, in coordinates of the argument arrays.

  The grid is 4 × 4 × 16: point `t` has row tile `t / 64`, column tile `t / 16 % 4` and contraction step `t % 16`.
  The activation block at `t` is rows `2048 (t / 64) …`, positions `256 (t % 16) …` of the activations; the weight block
  rows `1024 (t / 16 % 4) …`, the same positions, of the weights; the two scale blocks the same rows, all 32 columns;
  the bias block columns `1024 (t / 16 % 4) …`. The weight scales reach the kernel expanded along their rows (each of
  the 32 rows repeated 128 times): row `n` of the expanded array is row `n / 128` of the argument. The bias reaches it
  as one row.
-/
import proofs.«115510_j10084583211483_2_alg».proof.Proof.Gen.KernelIdeal.Frame
import proofs.«115510_j10084583211483_2_alg».proof.Proof.Spec
import Idealize.ShloMosaic.Lib.Pipeline.Value
import Idealize.ShloMosaic.Lib.ValueLayout
import Idealize.ShloMosaic.Lib.StableHlo.Run

noncomputable section

namespace Cert.KernelIdeal.Blocks

open Cert.KernelIdeal Cert.KernelIdeal.Gen Cert.BlockScaled Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The printed index maps and the contraction coordinate, decided once over the 256 grid points. -/
theorem idx_facts : ∀ t : Fin cfg0.N,
    win0_0.index t (0 : Fin 2) = t.val / 64 ∧ win0_0.index t (1 : Fin 2) = t.val % 16
    ∧ win0_1.index t (0 : Fin 2) = t.val / 16 % 4 ∧ win0_1.index t (1 : Fin 2) = t.val % 16
    ∧ win0_2.index t (0 : Fin 2) = t.val / 64 ∧ win0_2.index t (1 : Fin 2) = 0
    ∧ win0_3.index t (0 : Fin 2) = t.val / 16 % 4 ∧ win0_3.index t (1 : Fin 2) = 0
    ∧ win0_4.index t (0 : Fin 2) = 0 ∧ win0_4.index t (1 : Fin 2) = t.val / 16 % 4
    ∧ win0_5.index t (0 : Fin 2) = t.val / 64 ∧ win0_5.index t (1 : Fin 2) = t.val / 16 % 4
    ∧ (grid0.coords t 2).val = t.val % 16 :=
  (by decide +kernel : ∀ t : Fin grid0.N, _)

/-- The activation block. -/
theorem blk_x (c : Dev nD) (t : Fin cfg0.N) (p : Fin 2048) (kk : Fin 256) :
    iblk m c 0 t (ix2 p kk)
      = at2 (n0 := 8192) (n1 := 4096) (m ((c : Thread nD τ).loc main_arg0)) (2048 * (t.val / 64) + p.val) (256 * (t.val % 16) + kk.val) := by
  obtain ⟨e0, e1, -⟩ := idx_facts t
  show V m c main_arg0 (((cfg0.win 0).blk t).view.emb (ix2 p kk)) = _
  rw [V_main_arg0]
  refine at2_eq _ _ _ _ ?_ ?_
  · show win0_0.index t (0 : Fin 2) * 2048 + 1 * p.val = _; rw [e0]; omega
  · show win0_0.index t (1 : Fin 2) * 256 + 1 * kk.val = _; rw [e1]; omega

/-- The weight block. -/
theorem blk_w (c : Dev nD) (t : Fin cfg0.N) (q : Fin 1024) (kk : Fin 256) :
    iblk m c 1 t (ix2 q kk)
      = at2 (n0 := 4096) (n1 := 4096) (m ((c : Thread nD τ).loc main_arg2)) (1024 * (t.val / 16 % 4) + q.val) (256 * (t.val % 16) + kk.val) := by
  obtain ⟨-, -, e0, e1, -⟩ := idx_facts t
  show V m c main_arg2 (((cfg0.win 1).blk t).view.emb (ix2 q kk)) = _
  rw [V_main_arg2]
  refine at2_eq _ _ _ _ ?_ ?_
  · show win0_1.index t (0 : Fin 2) * 1024 + 1 * q.val = _; rw [e0]; omega
  · show win0_1.index t (1 : Fin 2) * 256 + 1 * kk.val = _; rw [e1]; omega

/-- The activation scale block. -/
theorem blk_xs (c : Dev nD) (t : Fin cfg0.N) (p : Fin 2048) (j : Fin 32) :
    iblk m c 2 t (ix2 p j)
      = at2 (n0 := 8192) (n1 := 32) (m ((c : Thread nD τ).loc main_arg1)) (2048 * (t.val / 64) + p.val) j.val := by
  obtain ⟨-, -, -, -, e0, e1, -⟩ := idx_facts t
  show V m c main_arg1 (((cfg0.win 2).blk t).view.emb (ix2 p j)) = _
  rw [V_main_arg1]
  refine at2_eq _ _ _ _ ?_ ?_
  · show win0_2.index t (0 : Fin 2) * 2048 + 1 * p.val = _; rw [e0]; omega
  · show win0_2.index t (1 : Fin 2) * 32 + 1 * j.val = _; rw [e1]; omega

/-- The weight scales as the region finds them: each row of the argument repeated 128 times. -/
theorem V_ws (c : Dev nD) : (V m c main_v2 : S4096x32.Idx → EReal)
    = shapeCast S4096x32 (broadcastInDim S32x128x32 ![0, 2] bcast_S32x32_S32x128x32_0_2 (m ((c : Thread nD τ).loc main_arg3)))
        shapeCasts_S32x128x32_S4096x32 := by
  dsimp only [Gen.V, Gen.hostOps0]; after_results; rfl

/-- Row `n` of the expanded weight scales is row `n / 128` of the argument. -/
theorem V_ws_apply (c : Dev nD) (e : S4096x32.Idx) :
    V m c main_v2 e = at2 (n0 := 32) (n1 := 32) (m ((c : Thread nD τ).loc main_arg3)) ((e 0).val / 128) (e 1).val := by
  have h0 : (e 0).val < 4096 := idx2_lt0 e
  have h1 : (e 1).val < 32 := idx2_lt1 e
  rw [V_ws]
  refine (shapeCast_apply _ shapeCasts_S32x128x32_S4096x32 e
    (ix3 (⟨(e 0).val / 128, by omega⟩ : Fin 32) (⟨(e 0).val % 128, by omega⟩ : Fin 128) (⟨(e 1).val, h1⟩ : Fin 32)) ?_).trans ?_
  · rw [Shape.rowMajor_val_three, Shape.rowMajor_val_two]
    show ((e 0).val / 128 * 128 + (e 0).val % 128) * 32 + (e 1).val = (e 0).val * 32 + (e 1).val
    omega
  refine (broadcastInDim_apply _ bcast_S32x32_S32x128x32_0_2 _ _
    (ix2 (⟨(e 0).val / 128, by omega⟩ : Fin 32) (⟨(e 1).val, h1⟩ : Fin 32)) (fun a => ?_)).trans ?_
  · match a with
    | ⟨0, _⟩ => show (e 0).val / 128 = if (32 : ℕ) = 1 then 0 else (e 0).val / 128; rw [if_neg (by decide)]
    | ⟨1, _⟩ => show (e 1).val = if (32 : ℕ) = 1 then 0 else (e 1).val; rw [if_neg (by decide)]
  exact at2_eq _ _ _ _ rfl rfl

/-- The weight scale block. -/
theorem blk_ws (c : Dev nD) (t : Fin cfg0.N) (q : Fin 1024) (j : Fin 32) :
    iblk m c 3 t (ix2 q j)
      = at2 (n0 := 32) (n1 := 32) (m ((c : Thread nD τ).loc main_arg3)) ((1024 * (t.val / 16 % 4) + q.val) / 128) j.val := by
  obtain ⟨-, -, -, -, -, -, e0, e1, -⟩ := idx_facts t
  show V m c main_v2 (((cfg0.win 3).blk t).view.emb (ix2 q j)) = _
  rw [V_ws_apply]
  have a0 : ((((cfg0.win 3).blk t).view.emb (ix2 q j) : S4096x32.Idx) 0).val = 1024 * (t.val / 16 % 4) + q.val := by
    show win0_3.index t (0 : Fin 2) * 1024 + 1 * q.val = _; rw [e0]; omega
  have a1 : ((((cfg0.win 3).blk t).view.emb (ix2 q j) : S4096x32.Idx) 1).val = j.val := by
    show win0_3.index t (1 : Fin 2) * 32 + 1 * j.val = _; rw [e1]; omega
  rw [a0, a1]

/-- The bias as the region finds it: the argument as one row. -/
theorem V_b (c : Dev nD) : (V m c main_v0 : S1x4096.Idx → EReal)
    = shapeCast S1x4096 (m ((c : Thread nD τ).loc main_arg4)) shapeCasts_S4096_S1x4096 := by
  dsimp only [Gen.V, Gen.hostOps0]; after_results; rfl

/-- The bias block. -/
theorem blk_b (c : Dev nD) (t : Fin cfg0.N) (q : Fin 1024) :
    iblk m c 4 t (ix2 (0 : Fin 1) q)
      = at1 (n := 4096) (m ((c : Thread nD τ).loc main_arg4)) (1024 * (t.val / 16 % 4) + q.val) := by
  obtain ⟨-, -, -, -, -, -, -, -, e0, e1, -⟩ := idx_facts t
  have hq : q.val < 1024 := q.isLt
  have ht : t.val / 16 % 4 < 4 := Nat.mod_lt _ (by decide)
  show V m c main_v0 (((cfg0.win 4).blk t).view.emb (ix2 (0 : Fin 1) q)) = _
  have ee : (((cfg0.win 4).blk t).view.emb (ix2 (0 : Fin 1) q) : S1x4096.Idx)
      = ix2 (0 : Fin 1) (⟨1024 * (t.val / 16 % 4) + q.val, by omega⟩ : Fin 4096) := by
    funext a; apply Fin.ext
    match a with
    | ⟨0, _⟩ => show win0_4.index t (0 : Fin 2) * 1 + 1 * 0 = 0; rw [e0]
    | ⟨1, _⟩ => show win0_4.index t (1 : Fin 2) * 1024 + 1 * q.val = 1024 * (t.val / 16 % 4) + q.val; rw [e1]; omega
  rw [ee, V_b, shapeCast_a_1a_apply]
  exact at1_eq _ _ _ rfl

end Cert.KernelIdeal.Blocks

end
-- ==== Proof.KernelValue.lean ====
/-
  The kernel's result array is the block-scaled product `G` of its arguments.

  Output tile `(I, J)` (rows `2048 I …`, columns `1024 J …`) is visited by the sixteen consecutive grid points
  `16 Q … 16 Q + 15`, `Q = 4 I + J`, one per contraction step. The first starts from zero and adds its step's
  contribution; each later one adds its own to what the point before left; the last also adds the bias row. So after
  the point at offset `j` of the run the block holds the sum of the contributions of steps `0 … j` (induction on `j`),
  and after the last one the whole contraction plus the bias: `G` on that tile (Spec.lean regroups `G`'s sum into the
  sixteen steps). Only the last point of a run writes its block back, the sixteen tiles' last points cover the array,
  and so the array ends at `G`.
-/
import proofs.«115510_j10084583211483_2_alg».proof.Proof.StepAt
import proofs.«115510_j10084583211483_2_alg».proof.Proof.BlockReads
import proofs.«115510_j10084583211483_2_alg».proof.Proof.Gen.KernelIdeal.Value

noncomputable section

namespace Cert.KernelIdeal.Result

open Cert.KernelIdeal Cert.KernelIdeal.Gen Cert.KernelIdeal.Steps Cert.KernelIdeal.Blocks Cert.BlockScaled
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- What grid point `n` adds at entry `(p, q)` of its output block: contraction step `n % 16` at the entry's row and
    column of the whole arrays. -/
def addend (c : Dev nD) (n p q : ℕ) : EReal :=
  stepSum (m ((c : Thread nD τ).loc main_arg0)) (m ((c : Thread nD τ).loc main_arg1)) (m ((c : Thread nD τ).loc main_arg2)) (m ((c : Thread nD τ).loc main_arg3))
    (2048 * (n / 64) + p) (1024 * (n / 16 % 4) + q) (n % 16)

/-- The result array the kernel is claimed to leave. -/
abbrev result (c : Dev nD) : S8192x4096.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4))

/-- The bias store's value at an index: the block's entry plus the bias row's entry of the column. -/
theorem pay2_apply (v64 : Vec Ideal S2048x1024 .f32) (v66 : Vec Ideal S1x1024 .f32) (p : Fin 2048) (q : Fin 1024) :
    k0_pay2 v64 v66 (ix2 p q) = v64 (ix2 p q) + v66 (ix2 (0 : Fin 1) q) := by
  unfold k0_pay2
  rw [addf_apply, shapeCast_self, shapeCast_self, broadcastTo_1b_ab_apply]

/-- ONE STEP AT A GRID POINT adds that point's contribution. -/
theorem step_point (c : Dev nD) (t : Fin cfg0.N) (acc : Vec Ideal S2048x1024 .f32) (p : Fin 2048) (q : Fin 1024) :
    step (grid0.coords t) (iblk m c 0 t) (iblk m c 1 t) (iblk m c 2 t) (iblk m c 3 t) acc (ix2 p q)
      = acc (ix2 p q) + addend m c t.val p.val q.val := by
  have ek : (grid0.coords t 2).val = t.val % 16 := (idx_facts t).2.2.2.2.2.2.2.2.2.2.2.2
  have hk : t.val % 16 < 16 := Nat.mod_lt _ (by decide)
  refine (step_apply (grid0.coords t) (t.val % 16) hk ek (iblk m c 0 t) (iblk m c 1 t) (iblk m c 2 t) (iblk m c 3 t) acc p q).trans ?_
  rw [add_assoc]
  refine congrArg (acc (ix2 p q) + ·) ?_
  unfold addend stepSum
  rw [← Fin.sum_univ_eq_sum_range (fun x => pterm (m ((c : Thread nD τ).loc main_arg0)) (m ((c : Thread nD τ).loc main_arg1)) (m ((c : Thread nD τ).loc main_arg2)) (m ((c : Thread nD τ).loc main_arg3))
        (2048 * (t.val / 64) + p.val) (1024 * (t.val / 16 % 4) + q.val) (256 * (t.val % 16) + x)) 128,
    ← Fin.sum_univ_eq_sum_range (fun x => pterm (m ((c : Thread nD τ).loc main_arg0)) (m ((c : Thread nD τ).loc main_arg1)) (m ((c : Thread nD τ).loc main_arg2)) (m ((c : Thread nD τ).loc main_arg3))
        (2048 * (t.val / 64) + p.val) (1024 * (t.val / 16 % 4) + q.val) (256 * (t.val % 16) + 128 + x)) 128]
  refine congrArg₂ (· + ·) (Finset.sum_congr rfl fun kk _ => ?_) (Finset.sum_congr rfl fun kk _ => ?_)
  · have hkk : kk.val < 128 := kk.isLt
    unfold pterm
    rw [blk_x, blk_xs, blk_w, blk_ws,
      show (256 * (t.val % 16) + kk.val) / 128 = 2 * (t.val % 16) from by omega]
  · have hkk : kk.val < 128 := kk.isLt
    unfold pterm
    rw [blk_x, blk_xs, blk_w, blk_ws,
      show (256 * (t.val % 16) + 128 + kk.val) / 128 = 2 * (t.val % 16) + 1 from by omega,
      show 256 * (t.val % 16) + (128 + kk.val) = 256 * (t.val % 16) + 128 + kk.val from by omega]

/-- The contents after a point depend on the point's number only. -/
theorem outs_same (c : Dev nD) (u v : ℕ) (hu : u < cfg0.N) (hv : v < cfg0.N) (e : u = v) :
    outsAt0 m c u hu = outsAt0 m c v hv := by
  subst e; rfl

/-- THE RUNNING SUM: after the point at offset `j ≤ 14` of the run starting at `16 Q`, the block holds the contributions
    of the points `16 Q … 16 Q + j`. -/
theorem outs_partial (c : Dev nD) (Q : ℕ) : ∀ (j : ℕ), j ≤ 14 → ∀ (h : 16 * Q + j < cfg0.N) (p : Fin 2048) (q : Fin 1024),
    outsAt0 m c (16 * Q + j) h (ix2 p q) = ∑ s ∈ Finset.range (j + 1), addend m c (16 * Q + s) p.val q.val
  | 0, _, h, p, q => by
    have h0 : (⟨16 * Q + 0, h⟩ : Fin cfg0.N).val % 16 = 0 := by show (16 * Q + 0) % 16 = 0; omega
    have h1 : ¬(⟨16 * Q + 0, h⟩ : Fin cfg0.N).val % 16 = 15 := by show ¬(16 * Q + 0) % 16 = 15; omega
    have e : outsAt0 m c (16 * Q + 0) h = _ := outsAt0_A m c ⟨16 * Q + 0, h⟩ h0 h1
    rw [e, out_A, step_point, Finset.sum_range_one]
    show Ideal.ofBits .f32 0x00000000#32 + _ = _
    rw [Ideal.ofBits_zero_f32, zero_add]
  | j + 1, hj, h, p, q => by
    have h0 : ¬(⟨16 * Q + (j + 1), h⟩ : Fin cfg0.N).val % 16 = 0 := by show ¬(16 * Q + (j + 1)) % 16 = 0; omega
    have h1 : ¬(⟨16 * Q + (j + 1), h⟩ : Fin cfg0.N).val % 16 = 15 := by show ¬(16 * Q + (j + 1)) % 16 = 15; omega
    have hN : cfg0.N = 256 := N_0
    have hp : 16 * Q + j < cfg0.N := by omega
    have e : outsAt0 m c (16 * Q + (j + 1)) h = _ := outsAt0_B m c ⟨16 * Q + (j + 1), h⟩ h0 h1
    rw [e, out_B, step_point, Finset.sum_range_succ]
    refine congrArg (· + addend m c (16 * Q + (j + 1)) p.val q.val) ?_
    rw [outs_same m c _ (16 * Q + j) _ hp (by show 16 * Q + (j + 1) - 1 = 16 * Q + j; omega)]
    exact outs_partial c Q j (by omega) hp p q

/-- AFTER THE LAST POINT OF A RUN the block is the tile of `G`: sixteen contributions and the bias. -/
theorem outs_last (c : Dev nD) (t : Fin cfg0.N) (h15 : t.val % 16 = 15) (p : Fin 2048) (q : Fin 1024)
    (hr : 2048 * (t.val / 64) + p.val < 8192) (hn : 1024 * (t.val / 16 % 4) + q.val < 4096) :
    outsAt0 m c t.val t.isLt (ix2 p q)
      = result m c (ix2 (⟨2048 * (t.val / 64) + p.val, hr⟩ : Fin 8192) (⟨1024 * (t.val / 16 % 4) + q.val, hn⟩ : Fin 4096)) := by
  have hN : cfg0.N = 256 := N_0
  have ht : t.val < 256 := lt_of_lt_of_eq t.isLt hN
  have h0 : ¬t.val % 16 = 0 := by omega
  have hp : 16 * (t.val / 16) + 14 < cfg0.N := by omega
  have e1 : outsAt0 m c t.val t.isLt = _ := outsAt0_C m c t h0 h15
  rw [e1, out_C]
  refine (pay2_apply (step (grid0.coords t) (iblk m c 0 t) (iblk m c 1 t) (iblk m c 2 t) (iblk m c 3 t) (outsAt0 m c (t.val - 1) (Nat.lt_of_le_of_lt (Nat.sub_le _ _) t.isLt))) (iblk m c 4 t) p q).trans ?_
  rw [step_point m c t _ p q, blk_b m c t q,
    outs_same m c _ (16 * (t.val / 16) + 14) _ hp (by omega), outs_partial m c (t.val / 16) 14 (le_refl _) hp p q]
  have hG := G_eq_steps (m ((c : Thread nD τ).loc main_arg0)) (m ((c : Thread nD τ).loc main_arg1)) (m ((c : Thread nD τ).loc main_arg2)) (m ((c : Thread nD τ).loc main_arg3)) (m ((c : Thread nD τ).loc main_arg4))
    (ix2 (⟨2048 * (t.val / 64) + p.val, hr⟩ : Fin 8192) (⟨1024 * (t.val / 16 % 4) + q.val, hn⟩ : Fin 4096))
  have hG' : result m c (ix2 (⟨2048 * (t.val / 64) + p.val, hr⟩ : Fin 8192) (⟨1024 * (t.val / 16 % 4) + q.val, hn⟩ : Fin 4096))
      = ((∑ s ∈ Finset.range 15, stepSum (m ((c : Thread nD τ).loc main_arg0)) (m ((c : Thread nD τ).loc main_arg1)) (m ((c : Thread nD τ).loc main_arg2)) (m ((c : Thread nD τ).loc main_arg3))
      (2048 * (t.val / 64) + p.val) (1024 * (t.val / 16 % 4) + q.val) s)
          + stepSum (m ((c : Thread nD τ).loc main_arg0)) (m ((c : Thread nD τ).loc main_arg1)) (m ((c : Thread nD τ).loc main_arg2)) (m ((c : Thread nD τ).loc main_arg3))
      (2048 * (t.val / 64) + p.val) (1024 * (t.val / 16 % 4) + q.val) 15)
        + at1 (m ((c : Thread nD τ).loc main_arg4)) (1024 * (t.val / 16 % 4) + q.val) :=
    hG.trans (congrArg (· + at1 (m ((c : Thread nD τ).loc main_arg4)) (1024 * (t.val / 16 % 4) + q.val))
      (Finset.sum_range_succ (fun s => stepSum (m ((c : Thread nD τ).loc main_arg0)) (m ((c : Thread nD τ).loc main_arg1)) (m ((c : Thread nD τ).loc main_arg2)) (m ((c : Thread nD τ).loc main_arg3))
      (2048 * (t.val / 64) + p.val) (1024 * (t.val / 16 % 4) + q.val) s) 15))
  rw [hG']
  refine congrArg₂ (· + ·) (congrArg₂ (· + ·) (Finset.sum_congr rfl fun s hs => ?_) ?_) rfl
  · have hs' : s < 15 := Finset.mem_range.mp hs
    unfold addend
    rw [show (16 * (t.val / 16) + s) / 64 = t.val / 64 from by omega,
      show (16 * (t.val / 16) + s) / 16 % 4 = t.val / 16 % 4 from by omega,
      show (16 * (t.val / 16) + s) % 16 = s from by omega]
  · unfold addend
    rw [h15]

/-- An index of the array is in point `t`'s output block iff each coordinate is in the block's range on its axis. -/
theorem mem_blk (t : Fin cfg0.N) (i : S8192x4096.Idx) :
    i ∈ ((cfg0.win 5).blk t).view.set ↔ ∀ a : Fin 2, win0_5.index t a * S2048x1024.size a ≤ (i a).val
      ∧ (i a).val < win0_5.index t a * S2048x1024.size a + S2048x1024.size a := by
  show i ∈ ((View.whole main_v3).slice (win0_5.rect t)).set ↔ _
  rw [View.set_slice_whole, Rect.mem_set_unit]
  exact Iff.rfl

/-- WHAT A WRITING POINT WRITES BACK is its block of `G`. -/
theorem flushed_eq (c : Dev nD) (t : Fin cfg0.N) (hf : (cfg0.win 5).flush t = true) :
    (dats m 0 c).flushed 5 t = ((cfg0.win 5).blk t).view.read (Elt Ideal) (result m c) := by
  have h15 : t.val % 16 = 15 := (flush0_5 t).mp hf
  have hN : cfg0.N = 256 := N_0
  have ht : t.val < 256 := lt_of_lt_of_eq t.isLt hN
  have e0 : win0_5.index t (0 : Fin 2) = t.val / 64 := (idx_facts t).2.2.2.2.2.2.2.2.2.2.1
  have e1 : win0_5.index t (1 : Fin 2) = t.val / 16 % 4 := (idx_facts t).2.2.2.2.2.2.2.2.2.2.2.1
  rw [Value.flushed5]
  funext y
  obtain ⟨p, q, rfl⟩ : ∃ (p : Fin 2048) (q : Fin 1024), y = ix2 p q := ⟨y 0, y 1, eq_ix2 y⟩
  have hp : p.val < 2048 := p.isLt
  have hq : q.val < 1024 := q.isLt
  show outsAt0 m c t.val t.isLt (ix2 p q) = result m c (((cfg0.win 5).blk t).view.emb (ix2 p q))
  rw [outs_last m c t h15 p q (by omega) (by omega)]
  refine congrArg (result m c) (funext fun a => Fin.ext ?_)
  match a with
  | ⟨0, _⟩ => show 2048 * (t.val / 64) + p.val = win0_5.index t (0 : Fin 2) * 2048 + 1 * p.val; rw [e0]; omega
  | ⟨1, _⟩ => show 1024 * (t.val / 16 % 4) + q.val = win0_5.index t (1 : Fin 2) * 1024 + 1 * q.val; rw [e1]; omega

/-- Every index of the array is in the block of the last point of its tile's run. -/
theorem cover (i : S8192x4096.Idx) :
    ∃ t : Fin cfg0.N, (cfg0.win 5).flush t = true ∧ i ∈ ((cfg0.win 5).blk t).view.set := by
  have hN : cfg0.N = 256 := N_0
  have hi0 : (i 0).val < 8192 := idx2_lt0 i
  have hi1 : (i 1).val < 4096 := idx2_lt1 i
  have hb : 64 * ((i 0).val / 2048) + 16 * ((i 1).val / 1024) + 15 < cfg0.N := by omega
  refine ⟨⟨64 * ((i 0).val / 2048) + 16 * ((i 1).val / 1024) + 15, hb⟩, (flush0_5 _).mpr (by show (64 * ((i 0).val / 2048) + 16 * ((i 1).val / 1024) + 15) % 16 = 15; omega), ?_⟩
  have e0 := (idx_facts ⟨64 * ((i 0).val / 2048) + 16 * ((i 1).val / 1024) + 15, hb⟩).2.2.2.2.2.2.2.2.2.2.1
  have e1 := (idx_facts ⟨64 * ((i 0).val / 2048) + 16 * ((i 1).val / 1024) + 15, hb⟩).2.2.2.2.2.2.2.2.2.2.2.1
  rw [mem_blk]
  intro a
  match a with
  | ⟨0, _⟩ =>
    show win0_5.index _ (0 : Fin 2) * 2048 ≤ (i 0).val ∧ (i 0).val < win0_5.index _ (0 : Fin 2) * 2048 + 2048
    rw [e0]; show (64 * ((i 0).val / 2048) + 16 * ((i 1).val / 1024) + 15) / 64 * 2048 ≤ (i 0).val ∧ (i 0).val < (64 * ((i 0).val / 2048) + 16 * ((i 1).val / 1024) + 15) / 64 * 2048 + 2048; omega
  | ⟨1, _⟩ =>
    show win0_5.index _ (1 : Fin 2) * 1024 ≤ (i 1).val ∧ (i 1).val < win0_5.index _ (1 : Fin 2) * 1024 + 1024
    rw [e1]; show (64 * ((i 0).val / 2048) + 16 * ((i 1).val / 1024) + 15) / 16 % 4 * 1024 ≤ (i 1).val ∧ (i 1).val < (64 * ((i 0).val / 2048) + 16 * ((i 1).val / 1024) + 15) / 16 % 4 * 1024 + 1024; omega

/-- THE ARRAY AFTER THE RUN is `G` of the arguments. -/
theorem final (c : Dev nD) : (dats m 0 c).arrAt 5 cfg0.N = result m c :=
  (dats m 0 c).arrAt_eq_of_cover 5 (result m c) (flushed_eq m c) cover

/-- The kernel's run: the result array at `G` of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Result

end
-- ==== Proof.RefIsSpec.lean ====
/-
  The reference computes the block-scaled product of Spec.lean.

  jnp's `repeat` of the activation scales along the contraction axis is a broadcast to [8192, 32, 128] followed by a
  reshape to [8192, 4096]: position `k` of row `r` reads scale `(r, k / 128)`. The weight scales are repeated along
  both axes the same way: entry `(n, k)` reads scale `(n / 128, k / 128)`. The two scaled arrays are contracted along
  their second axes and the bias row is added to every row. Read at an index, this is `G` term by term.
-/
import proofs.«115510_j10084583211483_2_alg».proof.Proof.Gen.ReferenceIdeal.Read
import proofs.«115510_j10084583211483_2_alg».proof.Proof.Spec

noncomputable section

namespace Cert.ReferenceIdeal.RefValue

open Cert.ReferenceIdeal Cert.ReferenceIdeal.Read Cert.BlockScaled Idealize.ShloMosaic Idealize.ShloMosaic.ValueIdx

/-- The reference's result, as a function of its five arguments, is `G` of them. -/
theorem val_eq_G (x0 : S8192x4096.Idx → EReal) (x1 : S8192x32.Idx → EReal) (x2 : S4096x4096.Idx → EReal)
    (x3 : S32x32.Idx → EReal) (x4 : S4096.Idx → EReal) :
    val_main_v11 (F := Ideal) x0 x1 x2 x3 x4 = G x0 x1 x2 x3 x4 := by
  funext i
  have h0 : (i 0).val < 8192 := idx2_lt0 i
  have h1 : (i 1).val < 4096 := idx2_lt1 i
  rw [val_main_v11_apply, val_main_v8_apply, val_main_v10_apply, val_main_v9_apply]
  unfold G
  rw [← Fin.sum_univ_eq_sum_range (fun k => pterm x0 x1 x2 x3 (i 0).val (i 1).val k) 4096]
  show (∑ k : Fin 4096, _) + x4 _ = _
  refine congrArg₂ (· + ·) (Finset.sum_congr rfl fun k _ => ?_) (at1_eq x4 _ (i 1).val rfl)
  have hk : k.val < 4096 := k.isLt
  rw [val_main_v6_apply, val_main_v7_apply, val_main_v1_apply, val_main_v0_apply, val_main_v5_apply, val_main_v4_apply,
    val_main_v3_apply, val_main_v2_apply]
  unfold pterm
  show (x0 _ * x1 _) * (x2 _ * x3 _) = _
  rw [at2_eq x0 (lidx_main_v8 i k) (i 0).val k.val rfl rfl,
    at2_eq x1 (idx_main_v0 (idx_main_v1 (lidx_main_v8 i k))) (i 0).val (k.val / 128)
      (by show ((i 0).val * 4096 + k.val) / 4096 = (i 0).val; omega)
      (by show ((i 0).val * 4096 + k.val) / 128 % 32 = k.val / 128; omega),
    at2_eq x2 (ridx_main_v8 i k) (i 1).val k.val rfl rfl,
    at2_eq x3 (idx_main_v2 (idx_main_v3 (idx_main_v4 (idx_main_v5 (ridx_main_v8 i k))))) ((i 1).val / 128) (k.val / 128)
      (by show (((i 1).val * 4096 + k.val) / 4096 * 32 + ((i 1).val * 4096 + k.val) / 128 % 32) / 4096 = (i 1).val / 128; omega)
      (by show (((i 1).val * 4096 + k.val) / 4096 * 32 + ((i 1).val * 4096 + k.val) / 128 % 32) % 32 = k.val / 128; omega)]

end Cert.ReferenceIdeal.RefValue

end
-- ==== Proof.lean ====
/-
  A block-scaled matrix product with bias: the tiled kernel against the whole-array reference, over the extended reals.

  Both programs compute, for activations `x` [8192, 4096] with scales `xs` [8192, 32], weights `w` [4096, 4096] with
  scales `ws` [32, 32] and a bias `b` [4096],

      y[r, n] = ∑ k < 4096, (x[r, k] · xs[r, k / 128]) · (w[n, k] · ws[n / 128, k / 128]) + b[n]

  (`G` of Proof/Spec.lean). The reference repeats the scales to the arrays' shapes, multiplies and contracts once
  (Proof/RefIsSpec.lean reads it at an index). The kernel tiles the result into 4 × 4 blocks and the contraction into
  sixteen steps of two 128-wide halves; in each half it selects the half's scale column by a sum against a one-hot row,
  scales the two slices, rounds them to sixteen bits — the identity on extended reals — and accumulates their product
  into the output block, adding the bias after the last step (Proof/HalfStep.lean, Proof/StepAt.lean: a step at an
  index; Proof/CaseValues.lean: what each of the three kinds of grid point leaves; Proof/BlockReads.lean: which
  entries of the arguments each block holds; Proof/KernelValue.lean: the running sum over a tile's sixteen points and
  the array after the run). The two sides differ only in how the 4096-term sum is grouped, and addition of extended
  reals is commutative and associative, so the claim holds for all inputs: the precondition is not used.

  No operation of the kernel is rewritten in its idealization: the idealized kernel is the kernel's own text read over
  the extended reals, and that conjunct is `True`.
  The three frame conjuncts are the generated frame runs; the reference's is its run with the result dropped.
-/
import proofs.«115510_j10084583211483_2_alg».proof.Defs
import proofs.«115510_j10084583211483_2_alg».proof.Proof.Gen.Kernel
import proofs.«115510_j10084583211483_2_alg».proof.Proof.Gen.Kernel.Skeleton
import proofs.«115510_j10084583211483_2_alg».proof.Proof.Gen.Kernel.Launch
import proofs.«115510_j10084583211483_2_alg».proof.Proof.Gen.Kernel.Points
import proofs.«115510_j10084583211483_2_alg».proof.Proof.Gen.Kernel.Frame
import proofs.«115510_j10084583211483_2_alg».proof.Proof.Gen.KernelIdeal
import proofs.«115510_j10084583211483_2_alg».proof.Proof.Gen.KernelIdeal.Skeleton
import proofs.«115510_j10084583211483_2_alg».proof.Proof.Gen.KernelIdeal.Launch
import proofs.«115510_j10084583211483_2_alg».proof.Proof.Gen.KernelIdeal.Points
import proofs.«115510_j10084583211483_2_alg».proof.Proof.Gen.KernelIdeal.Frame
import proofs.«115510_j10084583211483_2_alg».proof.Proof.Gen.ReferenceIdeal
import proofs.«115510_j10084583211483_2_alg».proof.Proof.Gen.KernelIdeal.Value
import proofs.«115510_j10084583211483_2_alg».proof.Proof.Gen.ReferenceIdeal.Run
import proofs.«115510_j10084583211483_2_alg».proof.Proof.Gen.ReferenceIdeal.Read
import proofs.«115510_j10084583211483_2_alg».proof.Proof.Gen.Pre_finite_inputs
import proofs.«115510_j10084583211483_2_alg».proof.Proof.KernelValue
import proofs.«115510_j10084583211483_2_alg».proof.Proof.RefIsSpec
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Over the extended reals the kernel's result array ends at `G` of its arguments and the reference's at the same
    function of arguments that agree with them. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v11_eq _ _ _ _ _).trans (Cert.ReferenceIdeal.RefValue.val_eq_G _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
